-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_arg9 : FVec F S64 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S64x128 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S64x128 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S128x64 : Shape := ⟨2, ![128, 64]⟩
abbrev S1600000x128 : Shape := ⟨2, ![1600000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 67
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S128x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S1x64, .f32⟩
  | .hbm, ⟨66, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S128x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  transposes_S128x128_S128x128_1_0 : S128x128.Transposes [1, 0] S128x128
  transposes_S64x128_S128x64_1_0 : S64x128.Transposes [1, 0] S128x64
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v29) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S128x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .i1⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S_, .f32⟩
  | .hbm, ⟨77, _⟩ => ⟨S1600000, .f32⟩
  | .hbm, ⟨78, _⟩ => ⟨S_, .f32⟩
  | .hbm, ⟨79, _⟩ => ⟨S100000, .f32⟩
  | .hbm, ⟨80, _⟩ => ⟨S1600000x1, .i32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S128x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S128x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S100000x128, .f32⟩
  | .hbm, ⟨101, _⟩ => ⟨S100000x128, .i1⟩
  | .hbm, ⟨102, _⟩ => ⟨S100000x128, .f32⟩
  | .hbm, ⟨103, _⟩ => ⟨S100000x128, .f32⟩
  | .hbm, ⟨104, _⟩ => ⟨S100000x128, .f32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S100000x128, .f32⟩
  | .hbm, ⟨109, _⟩ => ⟨S100000x128, .f32⟩
  | .hbm, ⟨110, _⟩ => ⟨S100000x128, .f32⟩
  | .hbm, ⟨111, _⟩ => ⟨S100000x128, .f32⟩
  | .hbm, ⟨112, _⟩ => ⟨S128x64, .f32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_4 : Ref sig .tc := ⟨.hbm, 63, rfl⟩
abbrev main_v34 : Ref sig .tc := ⟨.hbm, 64, rfl⟩
abbrev main_v35 : Ref sig .tc := ⟨.hbm, 65, rfl⟩
abbrev main_c_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_6 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_7 : Ref sig .tc := ⟨.hbm, 76, rfl⟩
abbrev main_v44 : Ref sig .tc := ⟨.hbm, 77, rfl⟩
abbrev main_cst_8 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_9 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result array named.

  The program is four stretches in order: host operations, the first layer's grid of twenty row blocks, host
  operations again (the second mean over incoming edges, which reads the first layer's output), and the grid of
  the second layer with the head. The buffer contents at the end of the last stretch are a fold through the four
  (the last boundary's valuation); every weakly fair execution terminates with each unscoped buffer at that fold.
  Here the run is stated with the result buffer kept: it ends at the fold's value there, and the ten arguments
  end as launched.
-/
import proofs.«167083_j15814069584342_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the last boundary's contents, the
    arguments as launched. -/
theorem run_named : θ_run defs (onTc (τ := τ) (main (F := F))) ⟨m, fun _ => 0, ρ⟩ (fun r => ∀ c : Dev nD,
      r.2.mem ((c.tc : Thread nD τ).loc main_v46) = W4 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v46 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Whole

end
-- ==== Proof.Spec.lean ====
/-
  The mathematics both programs share, on the extended reals.

  A layer of the network sends row p of an aggregated array `a` and row p of a root array `r` to
  act (Σₖ a[p,k]·wl[k,q] + Σₖ r[p,k]·wr[k,q] + b[q]),  act x = x · tanh (softplus x),
  with softplus x = max(x, 0) + log(1 + exp(−|x|)); the head sends row p of `h` to Σₖ h[p,k]·wh[k,q] + bh[q].
  The mean over incoming edges divides an edge sum s by c = max(count, 1). One program multiplies s by the
  quotient 1 / c, the other divides s by c; since c ≥ 1 is not zero, both are s · c⁻¹ whatever s is, finite or not.
  The two programs also add the three terms of the affine map in different orders, which addition on the
  extended reals allows (it is commutative and associative everywhere).
-/
import Idealize.ShloMosaic.PureOps.Ideal.Laws
import Idealize.ShloMosaic.Lib.ValueIdx

noncomputable section

open scoped BigOperators

namespace Cert.Sage

open Idealize.ShloMosaic Idealize.ShloMosaic.ValueIdx

/-! ## Words -/

/-- The word of `1.0` denotes the real one. -/
theorem one_word : Ideal.ofBits .f32 0x3F800000#32 = 1 := by
  simp [Ideal.ofBits, Ideal.ieee, -EReal.coe_mul]; norm_num

/-! ## The activation -/

/-- x · tanh (softplus x), the softplus as max(x, 0) + log(1 + exp(−|x|)) and |x| as max(x, −x). -/
def act (x : EReal) : EReal := x * Ideal.tanh (max x 0 + Ideal.log1p (Ideal.exp (-(max x (-x)))))

/-- No extended real differs from itself (ordered spelling of the test). -/
theorem cmp_one_self (x : EReal) : Ideal.cmp .one x x = 0#1 := by simp [Ideal.cmp]

/-- No extended real differs from itself (unordered spelling of the test). -/
theorem cmp_une_self (x : EReal) : Ideal.cmp .une x x = 0#1 := by simp [Ideal.cmp]

/-- The activation as one program spells it: the difference x − 0 tested against itself (never different), the
    exponent written 0 − |x − 0|. -/
theorem act_of_sub_form (x : EReal) :
    x * Ideal.tanh (Scalar.select (Ideal.cmp .one (x - Ideal.ofBits .f32 0x00000000#32) (x - Ideal.ofBits .f32 0x00000000#32))
        (x + Ideal.ofBits .f32 0x00000000#32)
        (max x (Ideal.ofBits .f32 0x00000000#32)
          + Ideal.log1p (Ideal.exp (Ideal.ofBits .f32 0x00000000#32
              - max (x - Ideal.ofBits .f32 0x00000000#32) (-(x - Ideal.ofBits .f32 0x00000000#32))))))
      = act x := by
  rw [Ideal.ofBits_zero_f32, cmp_one_self, select_zero, sub_zero, zero_sub]
  rfl

/-- The activation as the other program spells it: the same test in its unordered spelling, the exponent
    written −|x − 0|. -/
theorem act_of_neg_form (x : EReal) :
    x * Ideal.tanh (Scalar.select (Ideal.cmp .une (x - Ideal.ofBits .f32 0x00000000#32) (x - Ideal.ofBits .f32 0x00000000#32))
        (x + Ideal.ofBits .f32 0x00000000#32)
        (max x (Ideal.ofBits .f32 0x00000000#32)
          + Ideal.log1p (Ideal.exp (-(max (x - Ideal.ofBits .f32 0x00000000#32) (-(x - Ideal.ofBits .f32 0x00000000#32)))))))
      = act x := by
  rw [Ideal.ofBits_zero_f32, cmp_une_self, select_zero, sub_zero]
  rfl

/-! ## The mean's divisor -/

/-- Multiplying by the quotient 1 / c is dividing by c, for every nonzero extended real c (an infinite one
    included: both sides are then s · 0). -/
theorem mul_one_div (s c : EReal) (hc : c ≠ 0) : s * Ideal.div 1 c = Ideal.div s c := by
  unfold Ideal.div
  rw [if_neg hc, if_neg hc, one_mul]

/-- A count raised to at least one is not zero. -/
theorem max_one_ne_zero (a : EReal) : max a (Ideal.ofBits .f32 0x3F800000#32) ≠ 0 := by
  rw [one_word]
  exact ne_of_gt (lt_of_lt_of_le zero_lt_one (le_max_right a 1))

/-- The mean as a product with the reciprocal is the mean as a quotient. -/
theorem mean_mul_eq_div (s a : EReal) :
    s * Ideal.div (Ideal.ofBits .f32 0x3F800000#32) (max a (Ideal.ofBits .f32 0x3F800000#32))
      = Ideal.div s (max a (Ideal.ofBits .f32 0x3F800000#32)) := by
  have h := mul_one_div s _ (max_one_ne_zero a)
  rw [one_word] at h ⊢
  exact h

/-! ## A layer and the head, entry by entry -/

variable {n d : ℕ}

/-- Entry (p, q) of the affine map of a layer: row p of `a` against column q of `wl`, row p of `r` against
    column q of `wr`, and the bias at q. -/
def lin (a r : (⟨2, ![n, 128]⟩ : Shape).Idx → EReal) (wl wr : (⟨2, ![128, d]⟩ : Shape).Idx → EReal)
    (b : (⟨1, ![d]⟩ : Shape).Idx → EReal) (p : Fin n) (q : Fin d) : EReal :=
  (∑ k : Fin 128, a (ix2 p k) * wl (ix2 k q)) + (∑ k : Fin 128, r (ix2 p k) * wr (ix2 k q)) + b (ix1 q)

/-- A layer: the activation of the affine map, entry by entry. -/
def layer (a r : (⟨2, ![n, 128]⟩ : Shape).Idx → EReal) (wl wr : (⟨2, ![128, d]⟩ : Shape).Idx → EReal)
    (b : (⟨1, ![d]⟩ : Shape).Idx → EReal) : (⟨2, ![n, d]⟩ : Shape).Idx → EReal :=
  fun i => act (lin a r wl wr b (i 0) (i 1))

/-- The head: row p of `h` against column q of `wh`, and the bias at q. -/
def head (h : (⟨2, ![n, 128]⟩ : Shape).Idx → EReal) (wh : (⟨2, ![128, d]⟩ : Shape).Idx → EReal)
    (bh : (⟨1, ![d]⟩ : Shape).Idx → EReal) : (⟨2, ![n, d]⟩ : Shape).Idx → EReal :=
  fun i => (∑ k : Fin 128, h (ix2 (i 0) k) * wh (ix2 k (i 1))) + bh (ix1 (i 1))

/-- The three terms of the affine map in the other order: bias before the root term. -/
theorem lin_bias_first (a r : (⟨2, ![n, 128]⟩ : Shape).Idx → EReal) (wl wr : (⟨2, ![128, d]⟩ : Shape).Idx → EReal)
    (b : (⟨1, ![d]⟩ : Shape).Idx → EReal) (p : Fin n) (q : Fin d) :
    (∑ k : Fin 128, a (ix2 p k) * wl (ix2 k q)) + b (ix1 q) + (∑ k : Fin 128, r (ix2 p k) * wr (ix2 k q))
      = lin a r wl wr b p q := by
  unfold lin
  exact add_right_comm _ _ _

end Cert.Sage

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.BlockValue.lean ====
/-
  What the two kernel bodies store, read at one entry of the block.

  The first body loads a block of 5000 rows of the aggregated array, the same rows of the root array, the two
  128×128 weight matrices and the bias row, and stores act (rows · wl + rows' · wr + bias): at entry (p, q) of the
  block that is the activation of the layer's affine map on the block's own row p. The second body computes the
  same for its operands, then multiplies the activated block by the 128×64 head matrix and adds the head's bias
  row: at entry (p, q), Σₖ act (affine map at (p, k)) · wh[k, q] + bh[q]. The changes of float format in both
  bodies are the identity on the extended reals, and a matrix product into a zero accumulator is the plain sum.
-/
import proofs.«167083_j15814069584342_1_alg».proof.Proof.Gen.KernelIdeal.Skeleton
import proofs.«167083_j15814069584342_1_alg».proof.Proof.Spec
import proofs.«167083_j15814069584342_1_alg».proof.Proof.LibMatmulAt
import Idealize.ShloMosaic.Lib.ValueLayout
import Idealize.ShloMosaic.Lib.Pipeline.Value

noncomputable section

open scoped BigOperators

namespace Cert.KernelIdeal.Blocks

open Cert.KernelIdeal Cert.KernelIdeal.Gen Idealize.ShloMosaic Idealize.ShloMosaic.ValueIdx
open Idealize.ShloMosaic.MatmulAt Cert.Sage

/-! ## Where the two matrix products read their operands -/

theorem dl_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dl_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem dl_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem dl_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem dh_l0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dh_l1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem dh_r0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem dh_r1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The first layer's block -/

/-- The affine part of a layer's block as the first body computes it. -/
def blockLin0 (x0 x1 : Vec Ideal S5000x128 .f32) (x2 x4 : Vec Ideal S128x128 .f32) (x3 : Vec Ideal S1x128 .f32) :
    FVec Ideal S5000x128 .f32 :=
  addf (addf
      (matmul dot_S5000x128_S128x128_S5000x128_1_0_0_1_n_n none (truncf .bf16 (shapeCast S5000x128 x0 shapeCasts_S5000x128_S5000x128) bitsLt_bf16_f32)
        (truncf .bf16 (shapeCast S128x128 x2 shapeCasts_S128x128_S128x128) bitsLt_bf16_f32) (constant S5000x128 .f32 0x00000000#32))
      (matmul dot_S5000x128_S128x128_S5000x128_1_0_0_1_n_n none (truncf .bf16 x1 bitsLt_bf16_f32)
        (truncf .bf16 (shapeCast S128x128 x4 shapeCasts_S128x128_S128x128) bitsLt_bf16_f32) (constant S5000x128 .f32 0x00000000#32)))
    (broadcastTo S5000x128 (shapeCast S1x128 x3 shapeCasts_S1x128_S1x128) broadcasts_S1x128_S5000x128)

/-- The stored value is the activation of that affine part, entry by entry. -/
theorem pay0_eq_act (x0 x1 : Vec Ideal S5000x128 .f32) (x2 x4 : Vec Ideal S128x128 .f32) (x3 : Vec Ideal S1x128 .f32)
    (y : S5000x128.Idx) : k0_pay1 x0 x1 x2 x4 x3 y = act (blockLin0 x0 x1 x2 x4 x3 y) :=
  act_of_sub_form (blockLin0 x0 x1 x2 x4 x3 y)

/-- The affine part at entry (p, q): row p of the two row blocks against column q of the two matrices, plus the
    bias row at q. -/
theorem blockLin0_at (x0 x1 : Vec Ideal S5000x128 .f32) (x2 x4 : Vec Ideal S128x128 .f32) (x3 : Vec Ideal S1x128 .f32)
    (p : Fin 5000) (q : Fin 128) :
    blockLin0 x0 x1 x2 x4 x3 (ix2 p q)
      = lin (n := 5000) (d := 128) x0 x1 x2 x4 (fun j => x3 (ix2 (0 : Fin 1) (j 0))) p q := by
  unfold blockLin0 lin
  rw [addf_apply, addf_apply,
    matmul_zero_ix2 dot_S5000x128_S128x128_S5000x128_1_0_0_1_n_n rfl rfl dl_l0 dl_l1 dl_r0 dl_r1,
    matmul_zero_ix2 dot_S5000x128_S128x128_S5000x128_1_0_0_1_n_n rfl rfl dl_l0 dl_l1 dl_r0 dl_r1,
    broadcastTo_1b_ab_apply]
  simp only [truncf_apply, shapeCast_self]

/-- The first body's stored value at entry (p, q). -/
theorem pay0_at (x0 x1 : Vec Ideal S5000x128 .f32) (x2 x4 : Vec Ideal S128x128 .f32) (x3 : Vec Ideal S1x128 .f32)
    (p : Fin 5000) (q : Fin 128) :
    k0_pay1 x0 x1 x2 x4 x3 (ix2 p q)
      = act (lin (n := 5000) (d := 128) x0 x1 x2 x4 (fun j => x3 (ix2 (0 : Fin 1) (j 0))) p q) :=
  (pay0_eq_act x0 x1 x2 x4 x3 (ix2 p q)).trans (congrArg act (blockLin0_at x0 x1 x2 x4 x3 p q))

/-! ## The second layer's block and the head -/

/-- The affine part of a layer's block as the second body computes it. -/
def blockLin1 (x0 x1 : Vec Ideal S5000x128 .f32) (x2 x4 : Vec Ideal S128x128 .f32) (x3 : Vec Ideal S1x128 .f32) :
    FVec Ideal S5000x128 .f32 :=
  addf (addf
      (matmul dot_S5000x128_S128x128_S5000x128_1_0_0_1_n_n none (truncf .bf16 (shapeCast S5000x128 x0 shapeCasts_S5000x128_S5000x128) bitsLt_bf16_f32)
        (truncf .bf16 (shapeCast S128x128 x2 shapeCasts_S128x128_S128x128) bitsLt_bf16_f32) (constant S5000x128 .f32 0x00000000#32))
      (matmul dot_S5000x128_S128x128_S5000x128_1_0_0_1_n_n none (truncf .bf16 (shapeCast S5000x128 x1 shapeCasts_S5000x128_S5000x128) bitsLt_bf16_f32)
        (truncf .bf16 (shapeCast S128x128 x4 shapeCasts_S128x128_S128x128) bitsLt_bf16_f32) (constant S5000x128 .f32 0x00000000#32)))
    (broadcastTo S5000x128 (shapeCast S1x128 x3 shapeCasts_S1x128_S1x128) broadcasts_S1x128_S5000x128)

theorem pay2_eq_act (x0 x1 : Vec Ideal S5000x128 .f32) (x2 x4 : Vec Ideal S128x128 .f32) (x3 : Vec Ideal S1x128 .f32)
    (y : S5000x128.Idx) : k1_pay2 x0 x1 x2 x4 x3 y = act (blockLin1 x0 x1 x2 x4 x3 y) :=
  act_of_sub_form (blockLin1 x0 x1 x2 x4 x3 y)

theorem blockLin1_at (x0 x1 : Vec Ideal S5000x128 .f32) (x2 x4 : Vec Ideal S128x128 .f32) (x3 : Vec Ideal S1x128 .f32)
    (p : Fin 5000) (q : Fin 128) :
    blockLin1 x0 x1 x2 x4 x3 (ix2 p q)
      = lin (n := 5000) (d := 128) x0 x1 x2 x4 (fun j => x3 (ix2 (0 : Fin 1) (j 0))) p q := by
  unfold blockLin1 lin
  rw [addf_apply, addf_apply,
    matmul_zero_ix2 dot_S5000x128_S128x128_S5000x128_1_0_0_1_n_n rfl rfl dl_l0 dl_l1 dl_r0 dl_r1,
    matmul_zero_ix2 dot_S5000x128_S128x128_S5000x128_1_0_0_1_n_n rfl rfl dl_l0 dl_l1 dl_r0 dl_r1,
    broadcastTo_1b_ab_apply]
  simp only [truncf_apply, shapeCast_self]

/-- The activated block of the second body at entry (p, k). -/
theorem pay2_at (x0 x1 : Vec Ideal S5000x128 .f32) (x2 x4 : Vec Ideal S128x128 .f32) (x3 : Vec Ideal S1x128 .f32)
    (p : Fin 5000) (k : Fin 128) :
    k1_pay2 x0 x1 x2 x4 x3 (ix2 p k)
      = act (lin (n := 5000) (d := 128) x0 x1 x2 x4 (fun j => x3 (ix2 (0 : Fin 1) (j 0))) p k) :=
  (pay2_eq_act x0 x1 x2 x4 x3 (ix2 p k)).trans (congrArg act (blockLin1_at x0 x1 x2 x4 x3 p k))

/-- The head's product and bias at entry (p, q) of the stored block. -/
theorem pay1_at (h : FVec Ideal S5000x128 .bf16) (w : FVec Ideal S128x64 .bf16) (b : FVec Ideal S1x64 .f32)
    (p : Fin 5000) (q : Fin 64) :
    k1_pay1 h w b (ix2 p q) = (∑ k : Fin 128, h (ix2 p k) * w (ix2 k q)) + b (ix2 (0 : Fin 1) q) := by
  unfold k1_pay1
  rw [addf_apply, matmul_zero_ix2 dot_S5000x128_S128x64_S5000x64_1_0_0_1_n_n rfl rfl dh_l0 dh_l1 dh_r0 dh_r1, broadcastTo_1b_ab_apply]

/-- The head's matrix and bias row pass through their loads unchanged. -/
theorem pay3_at (x5 : Vec Ideal S128x64 .f32) (i : S128x64.Idx) : k1_pay3 x5 i = x5 i := by
  unfold k1_pay3
  rw [truncf_apply, shapeCast_self]

theorem pay4_at (x6 : Vec Ideal S1x64 .f32) (i : S1x64.Idx) : k1_pay4 x6 i = x6 i := by
  unfold k1_pay4
  rw [shapeCast_self]

/-- The second body's stored value at entry (p, q). -/
theorem out1_at (x0 x1 : Vec Ideal S5000x128 .f32) (x2 x4 : Vec Ideal S128x128 .f32) (x3 : Vec Ideal S1x128 .f32)
    (x5 : Vec Ideal S128x64 .f32) (x6 : Vec Ideal S1x64 .f32) (p : Fin 5000) (q : Fin 64) :
    k1_pay1 (k1_pay2 x0 x1 x2 x4 x3) (k1_pay3 x5) (k1_pay4 x6) (ix2 p q)
      = (∑ k : Fin 128, act (lin (n := 5000) (d := 128) x0 x1 x2 x4 (fun j => x3 (ix2 (0 : Fin 1) (j 0))) p k) * x5 (ix2 k q))
          + x6 (ix2 (0 : Fin 1) q) := by
  rw [pay1_at, pay4_at]
  refine congrArg (· + _) (Finset.sum_congr rfl fun k _ => ?_)
  rw [pay2_at, pay3_at]

end Cert.KernelIdeal.Blocks

end
-- ==== Proof.Region0.lean ====
/-
  The first layer's output array after its grid of twenty row blocks.

  Grid point t fetches rows 5000·t … 5000·t + 4999 of the aggregated array and of the root array (windows 0 and
  1), the two weight matrices and the bias row whole (windows 2, 4 and 3, whose index maps are constantly zero),
  and writes back rows 5000·t … 5000·t + 4999 of the output (window 5). What it writes back is the layer function
  of the arrays as the region finds them, read through that block; the twenty blocks cover the 100000 rows (row
  r lies in block r / 5000), so after the region the output array IS the layer function of those arrays.
-/
import proofs.«167083_j15814069584342_1_alg».proof.Proof.Gen.KernelIdeal.Frame
import proofs.«167083_j15814069584342_1_alg».proof.Proof.BlockValue
import Idealize.ShloMosaic.Lib.Pipeline.Value

set_option maxRecDepth 16384

noncomputable section

open scoped BigOperators

namespace Cert.KernelIdeal.Region0

open Cert.KernelIdeal Cert.KernelIdeal.Gen Cert.KernelIdeal.Blocks Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The six index maps over the grid: the two row windows and the output move with the point, the rest stay. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One entry of one block: if the loaded row blocks hold rows of `A` and `R` from row r on, and the rest are
    the whole arrays, the stored entry (p, q) is the layer function at (r, q). -/
theorem entry (x0 x1 : Vec Ideal S5000x128 .f32) (x2 x4 : Vec Ideal S128x128 .f32) (x3 : Vec Ideal S1x128 .f32)
    (A R : S100000x128.Idx → EReal) (Wl Wr : S128x128.Idx → EReal) (B : S1x128.Idx → EReal)
    (p : Fin 5000) (q : Fin 128) (r : Fin 100000)
    (h0 : ∀ k : Fin 128, x0 (ix2 p k) = A (ix2 r k)) (h1 : ∀ k : Fin 128, x1 (ix2 p k) = R (ix2 r k))
    (h2 : x2 = Wl) (h4 : x4 = Wr) (h3 : x3 = B) :
    k0_pay1 x0 x1 x2 x4 x3 (ix2 p q)
      = layer (n := 100000) (d := 128) A R Wl Wr (fun j => B (ix2 (0 : Fin 1) (j 0))) (ix2 r q) := by
  subst h2 h4 h3
  rw [pay0_at]
  show act (lin (n := 5000) (d := 128) x0 x1 x2 x4 _ p q) = act (lin (n := 100000) (d := 128) A R x2 x4 _ r q)
  unfold lin
  simp only [h0, h1]

/-- WHAT POINT t WRITES BACK: block t of the layer function of the arrays the region finds. -/
theorem flushed (c : Dev nD) (t : Fin cfg0.N) :
    (dat0 V c).flushed 5 t = ((cfg0.win 5).blk t).view.read (Elt Ideal)
      (layer (n := 100000) (d := 128) (V c main_v29) (V c main_arg0) (V c main_v13) (V c main_v14)
        (fun j => V c main_v30 (ix2 (0 : Fin 1) (j 0)))) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin,
    View.ld_unit_zero (S := S1x128) origin]
  obtain ⟨a0, a1, b0, b1, c0, c1, d0, d1, e0, e1, f0, f1⟩ := index_maps t
  have hN : cfg0.N = 20 := N_0
  have ht : t.val < 20 := hN ▸ t.isLt
  funext y
  obtain ⟨p, q, rfl⟩ : ∃ (p : Fin 5000) (q : Fin 128), y = ix2 p q := ⟨y 0, y 1, eq_ix2 y⟩
  have hp : p.val < 5000 := p.isLt
  have hr : t.val * 5000 + p.val < 100000 := by omega
  have hemb : ((cfg0.win 5).blk t).view.emb (ix2 p q) = ix2 (⟨t.val * 5000 + p.val, hr⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (iblk0 V c 0 t) (iblk0 V c 1 t) (iblk0 V c 2 t) (iblk0 V c 4 t) (iblk0 V c 3 t) (ix2 p q)
    = layer (n := 100000) (d := 128) (V c main_v29) (V c main_arg0) (V c main_v13) (V c main_v14)
        (fun j => V c main_v30 (ix2 (0 : Fin 1) (j 0))) (((cfg0.win 5).blk t).view.emb (ix2 p q))
  rw [hemb]
  refine entry _ _ _ _ _ _ _ _ _ _ p q _ ?_ ?_ ?_ ?_ ?_
  · intro k
    show V c main_v29 (((cfg0.win 0).blk t).view.emb (ix2 p k)) = V c main_v29 (ix2 (⟨t.val * 5000 + p.val, hr⟩ : Fin 100000) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k
    show V c main_arg0 (((cfg0.win 1).blk t).view.emb (ix2 p k)) = V c main_arg0 (ix2 (⟨t.val * 5000 + p.val, hr⟩ : Fin 100000) k)
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k.val = k.val; omega
  · funext z
    show V c main_v13 (((cfg0.win 2).blk t).view.emb z) = V c main_v13 z
    refine congrArg _ (funext fun a => Fin.ext ?_)
    match a with
    | ⟨0, _⟩ => show win0_2.index t (0 : Fin 2) * 128 + 1 * (z 0).val = (z 0).val; omega
    | ⟨1, _⟩ => show win0_2.index t (1 : Fin 2) * 128 + 1 * (z 1).val = (z 1).val; omega
  · funext z
    show V c main_v14 (((cfg0.win 4).blk t).view.emb z) = V c main_v14 z
    refine congrArg _ (funext fun a => Fin.ext ?_)
    match a with
    | ⟨0, _⟩ => show win0_4.index t (0 : Fin 2) * 128 + 1 * (z 0).val = (z 0).val; omega
    | ⟨1, _⟩ => show win0_4.index t (1 : Fin 2) * 128 + 1 * (z 1).val = (z 1).val; omega
  · funext z
    show V c main_v30 (((cfg0.win 3).blk t).view.emb z) = V c main_v30 z
    refine congrArg _ (funext fun a => Fin.ext ?_)
    match a with
    | ⟨0, _⟩ => show win0_3.index t (0 : Fin 2) * 1 + 1 * (z 0).val = (z 0).val; omega
    | ⟨1, _⟩ => show win0_3.index t (1 : Fin 2) * 128 + 1 * (z 1).val = (z 1).val; omega

/-- An index of the output array is in point t's block iff each coordinate is in the block's range. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v31).slice (win0_5.rect t)).set ↔ _
  rw [View.set_slice_whole, Rect.mem_set_unit]
  exact Iff.rfl

/-- Every index of the output array is in some point's block: row r in block r / 5000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have hlt : (i 0).val / 5000 < cfg0.N := by rw [hN]; omega
  refine ⟨⟨(i 0).val / 5000, hlt⟩, flush0_5 _, ?_⟩
  rw [mem_block]
  obtain ⟨-, -, -, -, -, -, -, -, -, -, f0, f1⟩ := index_maps ⟨(i 0).val / 5000, hlt⟩
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [f0]; show (i 0).val / 5000 * 5000 ≤ (i 0).val ∧ (i 0).val < (i 0).val / 5000 * 5000 + 5000; omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    rw [f1]; omega

/-- THE OUTPUT ARRAY after the region: the layer function of the arrays the region finds. -/
theorem final (c : Dev nD) :
    (dat0 V c).arrAt 5 cfg0.N
      = layer (n := 100000) (d := 128) (V c main_v29) (V c main_arg0) (V c main_v13) (V c main_v14)
          (fun j => V c main_v30 (ix2 (0 : Fin 1) (j 0))) :=
  (dat0 V c).arrAt_eq_of_cover 5 _ (fun t _ => flushed V c t) covered

end Cert.KernelIdeal.Region0

end
-- ==== Proof.Region1.lean ====
/-
  The result array after the second grid of twenty row blocks.

  Grid point t fetches rows 5000·t … 5000·t + 4999 of the second aggregated array and of the first layer's output
  (windows 0 and 1), and whole: the second layer's two weight matrices and bias row (windows 2, 4, 3), the head's
  128×64 matrix and its bias row (windows 5 and 6). It writes back rows 5000·t … 5000·t + 4999 of the result
  (window 7): the head applied to the second layer's function of the arrays the region finds, read through that
  block. The twenty blocks cover the 100000 rows, so after the region the result array IS that function.
-/
import proofs.«167083_j15814069584342_1_alg».proof.Proof.Gen.KernelIdeal.Frame
import proofs.«167083_j15814069584342_1_alg».proof.Proof.BlockValue
import Idealize.ShloMosaic.Lib.Pipeline.Value

set_option maxRecDepth 16384

noncomputable section

open scoped BigOperators

namespace Cert.KernelIdeal.Region1

open Cert.KernelIdeal Cert.KernelIdeal.Gen Cert.KernelIdeal.Blocks Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The eight index maps over the grid: the two row windows and the output move with the point, the rest stay. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- One entry of one block: if the loaded row blocks hold rows of `A` and `R` from row r on, and the rest are
    the whole arrays, the stored entry (p, q) is the head of the layer function at (r, q). -/
theorem entry (x0 x1 : Vec Ideal S5000x128 .f32) (x2 x4 : Vec Ideal S128x128 .f32) (x3 : Vec Ideal S1x128 .f32)
    (x5 : Vec Ideal S128x64 .f32) (x6 : Vec Ideal S1x64 .f32)
    (A R : S100000x128.Idx → EReal) (Wl Wr : S128x128.Idx → EReal) (B : S1x128.Idx → EReal)
    (Wh : S128x64.Idx → EReal) (Bh : S1x64.Idx → EReal)
    (p : Fin 5000) (q : Fin 64) (r : Fin 100000)
    (h0 : ∀ k : Fin 128, x0 (ix2 p k) = A (ix2 r k)) (h1 : ∀ k : Fin 128, x1 (ix2 p k) = R (ix2 r k))
    (h2 : x2 = Wl) (h4 : x4 = Wr) (h3 : x3 = B) (h5 : x5 = Wh) (h6 : x6 = Bh) :
    k1_pay1 (k1_pay2 x0 x1 x2 x4 x3) (k1_pay3 x5) (k1_pay4 x6) (ix2 p q)
      = head (n := 100000) (d := 64)
          (layer (n := 100000) (d := 128) A R Wl Wr (fun j => B (ix2 (0 : Fin 1) (j 0)))) Wh
          (fun j => Bh (ix2 (0 : Fin 1) (j 0))) (ix2 r q) := by
  subst h2 h4 h3 h5 h6
  rw [out1_at]
  show _ = (∑ k : Fin 128, layer (n := 100000) (d := 128) A R x2 x4 (fun j => x3 (ix2 (0 : Fin 1) (j 0))) (ix2 r k) * x5 (ix2 k q))
      + x6 (ix2 (0 : Fin 1) q)
  refine congrArg (· + _) (Finset.sum_congr rfl fun k _ => ?_)
  refine congrArg (· * _) ?_
  show act (lin (n := 5000) (d := 128) x0 x1 x2 x4 _ p k) = act (lin (n := 100000) (d := 128) A R x2 x4 _ r k)
  unfold lin
  simp only [h0, h1]

/-- WHAT POINT t WRITES BACK: block t of the head of the layer function of the arrays the region finds. -/
theorem flushed (c : Dev nD) (t : Fin cfg1.N) :
    (dat1 V c).flushed 7 t = ((cfg1.win 7).blk t).view.read (Elt Ideal)
      (head (n := 100000) (d := 64)
        (layer (n := 100000) (d := 128) (V c main_v43) (V c main_v31) (V c main_v15) (V c main_v16)
          (fun j => V c main_v44 (ix2 (0 : Fin 1) (j 0))))
        (V c main_v17) (fun j => V c main_v45 (ix2 (0 : Fin 1) (j 0)))) := by
  show (cfg1.win 7).cut (grid1.coords t) ((dat1 V c).after 7 t) = _
  rw [after1_7]
  unfold out1_7
  rw [View.canon_unit_zero origin]
  simp only [View.ld_unit_zero (S := S5000x128) origin, View.ld_unit_zero (S := S128x128) origin,
    View.ld_unit_zero (S := S1x128) origin, View.ld_unit_zero (S := S128x64) origin, View.ld_unit_zero (S := S1x64) origin]
  obtain ⟨a0, a1, b0, b1, c0, c1, d0, d1, e0, e1, f0, f1, g0, g1, o0, o1⟩ := index_maps t
  have hN : cfg1.N = 20 := N_1
  have ht : t.val < 20 := hN ▸ t.isLt
  funext y
  obtain ⟨p, q, rfl⟩ : ∃ (p : Fin 5000) (q : Fin 64), y = ix2 p q := ⟨y 0, y 1, eq_ix2 y⟩
  have hp : p.val < 5000 := p.isLt
  have hr : t.val * 5000 + p.val < 100000 := by omega
  have hemb : ((cfg1.win 7).blk t).view.emb (ix2 p q) = ix2 (⟨t.val * 5000 + p.val, hr⟩ : Fin 100000) q := by
    funext a; apply Fin.ext
    match a with
    | ⟨0, _⟩ => show win1_7.index t (0 : Fin 2) * 5000 + 1 * p.val = t.val * 5000 + p.val; omega
    | ⟨1, _⟩ => show win1_7.index t (1 : Fin 2) * 64 + 1 * q.val = q.val; omega
  show k1_pay1 (k1_pay2 (iblk1 V c 0 t) (iblk1 V c 1 t) (iblk1 V c 2 t) (iblk1 V c 4 t) (iblk1 V c 3 t))
      (k1_pay3 (iblk1 V c 5 t)) (k1_pay4 (iblk1 V c 6 t)) (ix2 p q)
    = head (n := 100000) (d := 64)
        (layer (n := 100000) (d := 128) (V c main_v43) (V c main_v31) (V c main_v15) (V c main_v16)
          (fun j => V c main_v44 (ix2 (0 : Fin 1) (j 0))))
        (V c main_v17) (fun j => V c main_v45 (ix2 (0 : Fin 1) (j 0))) (((cfg1.win 7).blk t).view.emb (ix2 p q))
  rw [hemb]
  refine entry _ _ _ _ _ _ _ _ _ _ _ _ _ _ p q _ ?_ ?_ ?_ ?_ ?_ ?_ ?_
  · intro k
    show V c main_v43 (((cfg1.win 0).blk t).view.emb (ix2 p k)) = V c main_v43 (ix2 (⟨t.val * 5000 + p.val, hr⟩ : Fin 100000) k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    show V c main_v31 (((cfg1.win 1).blk t).view.emb (ix2 p k)) = V c main_v31 (ix2 (⟨t.val * 5000 + p.val, hr⟩ : Fin 100000) k)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · funext z
    show V c main_v15 (((cfg1.win 2).blk t).view.emb z) = V c main_v15 z
    refine congrArg _ (funext fun a => Fin.ext ?_)
    match a with
    | ⟨0, _⟩ => show win1_2.index t (0 : Fin 2) * 128 + 1 * (z 0).val = (z 0).val; omega
    | ⟨1, _⟩ => show win1_2.index t (1 : Fin 2) * 128 + 1 * (z 1).val = (z 1).val; omega
  · funext z
    show V c main_v16 (((cfg1.win 4).blk t).view.emb z) = V c main_v16 z
    refine congrArg _ (funext fun a => Fin.ext ?_)
    match a with
    | ⟨0, _⟩ => show win1_4.index t (0 : Fin 2) * 128 + 1 * (z 0).val = (z 0).val; omega
    | ⟨1, _⟩ => show win1_4.index t (1 : Fin 2) * 128 + 1 * (z 1).val = (z 1).val; omega
  · funext z
    show V c main_v44 (((cfg1.win 3).blk t).view.emb z) = V c main_v44 z
    refine congrArg _ (funext fun a => Fin.ext ?_)
    match a with
    | ⟨0, _⟩ => show win1_3.index t (0 : Fin 2) * 1 + 1 * (z 0).val = (z 0).val; omega
    | ⟨1, _⟩ => show win1_3.index t (1 : Fin 2) * 128 + 1 * (z 1).val = (z 1).val; omega
  · funext z
    show V c main_v17 (((cfg1.win 5).blk t).view.emb z) = V c main_v17 z
    refine congrArg _ (funext fun a => Fin.ext ?_)
    match a with
    | ⟨0, _⟩ => show win1_5.index t (0 : Fin 2) * 128 + 1 * (z 0).val = (z 0).val; omega
    | ⟨1, _⟩ => show win1_5.index t (1 : Fin 2) * 64 + 1 * (z 1).val = (z 1).val; omega
  · funext z
    show V c main_v45 (((cfg1.win 6).blk t).view.emb z) = V c main_v45 z
    refine congrArg _ (funext fun a => Fin.ext ?_)
    match a with
    | ⟨0, _⟩ => show win1_6.index t (0 : Fin 2) * 1 + 1 * (z 0).val = (z 0).val; omega
    | ⟨1, _⟩ => show win1_6.index t (1 : Fin 2) * 64 + 1 * (z 1).val = (z 1).val; omega

/-- An index of the result array is in point t's block iff each coordinate is in the block's range. -/
theorem mem_block (t : Fin cfg1.N) (i : S100000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v46).slice (win1_7.rect t)).set ↔ _
  rw [View.set_slice_whole, Rect.mem_set_unit]
  exact Iff.rfl

/-- Every index of the result array is in some point's block: row r in block r / 5000. -/
theorem covered (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 20 := N_1
  have hlt : (i 0).val / 5000 < cfg1.N := by rw [hN]; omega
  refine ⟨⟨(i 0).val / 5000, hlt⟩, flush1_7 _, ?_⟩
  rw [mem_block]
  obtain ⟨-, -, -, -, -, -, -, -, -, -, -, -, -, -, o0, o1⟩ := index_maps ⟨(i 0).val / 5000, hlt⟩
  intro a
  match a with
  | ⟨0, _⟩ =>
    show win1_7.index ⟨(i 0).val / 5000, hlt⟩ (0 : Fin 2) * 5000 ≤ (i 0).val
      ∧ (i 0).val < win1_7.index ⟨(i 0).val / 5000, hlt⟩ (0 : Fin 2) * 5000 + 5000
    rw [o0]; show (i 0).val / 5000 * 5000 ≤ (i 0).val ∧ (i 0).val < (i 0).val / 5000 * 5000 + 5000; omega
  | ⟨1, _⟩ =>
    show win1_7.index ⟨(i 0).val / 5000, hlt⟩ (1 : Fin 2) * 64 ≤ (i 1).val
      ∧ (i 1).val < win1_7.index ⟨(i 0).val / 5000, hlt⟩ (1 : Fin 2) * 64 + 64
    rw [o1]; omega

/-- THE RESULT ARRAY after the region: the head of the layer function of the arrays the region finds. -/
theorem final (c : Dev nD) :
    (dat1 V c).arrAt 7 cfg1.N
      = head (n := 100000) (d := 64)
          (layer (n := 100000) (d := 128) (V c main_v43) (V c main_v31) (V c main_v15) (V c main_v16)
            (fun j => V c main_v44 (ix2 (0 : Fin 1) (j 0))))
          (V c main_v17) (fun j => V c main_v45 (ix2 (0 : Fin 1) (j 0))) :=
  (dat1 V c).arrAt_eq_of_cover 7 _ (fun t _ => flushed V c t) covered

end Cert.KernelIdeal.Region1

end
-- ==== Proof.KernelStages.lean ====
/-
  The idealized kernel's result array as a function of its ten arguments.

  Before the first grid the host computes the mean over incoming edges of the input rows — here an edge sum
  multiplied, row by row, by the reciprocal 1 / max(count, 1) —, transposes the five weight matrices and turns the
  first bias vector into a row. The first grid leaves the first layer's output. Between the grids the host computes
  the same mean of that output and turns the two remaining bias vectors into rows. The second grid leaves the head
  of the second layer. Reading the four stretches' boundary contents in order gives the result array as
  head (layer (mean h) h …) with h = layer (mean x) x … of the arguments.
-/
import proofs.«167083_j15814069584342_1_alg».proof.Proof.Gen.KernelIdeal.Frame
import proofs.«167083_j15814069584342_1_alg».proof.Proof.KernelRun
import proofs.«167083_j15814069584342_1_alg».proof.Proof.Region0
import proofs.«167083_j15814069584342_1_alg».proof.Proof.Region1
import Idealize.ShloMosaic.Lib.StableHlo.Run
import Idealize.ShloMosaic.Lib.ValueLayout

set_option maxRecDepth 16384

noncomputable section

open scoped BigOperators

namespace Cert.KernelIdeal.Stages

open Cert.KernelIdeal Cert.KernelIdeal.Gen Cert.Sage
open Idealize.ShloMosaic Idealize.ShloMosaic.TcCoe Idealize.ShloMosaic.ValueIdx Idealize.SL.Sem Idealize.ShloMosaic.StableHlo

abbrev Edges := (⟨S2x1600000, .i32⟩ : BufTy).Contents (Elt Ideal)
abbrev Feat := (⟨S100000x128, .f32⟩ : BufTy).Contents (Elt Ideal)
abbrev Mat := (⟨S128x128, .f32⟩ : BufTy).Contents (Elt Ideal)
abbrev Bias := (⟨S128, .f32⟩ : BufTy).Contents (Elt Ideal)

/-! ## The host stages, as the program spells them -/

/-- Source nodes of the edges. -/
def srcVec (e : Edges) : (⟨S1600000, .i32⟩ : BufTy).Contents (Elt Ideal) :=
  shapeCast S1600000 (extractStridedSlice S1x1600000 ![0, 0] e slices_S2x1600000_S1x1600000_0_0) shapeCasts_S1x1600000_S1600000

/-- Destination nodes of the edges. -/
def dstVec (e : Edges) : (⟨S1600000, .i32⟩ : BufTy).Contents (Elt Ideal) :=
  shapeCast S1600000 (extractStridedSlice S1x1600000 ![1, 0] e slices_S2x1600000_S1x1600000_1_0) shapeCasts_S1x1600000_S1600000

/-- The number of incoming edges of each node. -/
def count (e : Edges) : (⟨S100000, .f32⟩ : BufTy).Contents (Elt Ideal) :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 (dstVec e))
    (broadcastInDim S1600000 ![] bcast_S_S1600000 (constant (F := Ideal) S_ .f32 0x3F800000#32))

/-- The reciprocal 1 / max(count, 1) of each node, as a column. -/
def invCol (e : Edges) : (⟨S100000x1, .f32⟩ : BufTy).Contents (Elt Ideal) :=
  broadcastInDim S100000x1 ![0] bcast_S100000_S100000x1_0
    (Host.divf (broadcastInDim S100000 ![] bcast_S_S100000 (constant (F := Ideal) S_ .f32 0x3F800000#32))
      (maximumf (count e) (broadcastInDim S100000 ![] bcast_S_S100000 (constant (F := Ideal) S_ .f32 0x3F800000#32))))

/-- The sum over incoming edges of the source rows of `f` (a negative source index wrapped by the node count). -/
def edgeSum (e : Edges) (f : Feat) : Feat :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstVec e))
    (Host.gather gather_S100000x128_S1600000x1_S1600000x128_1_0_n_n_0_1_1128 f
      (broadcastInDim S1600000x1 ![0] bcast_S1600000_S1600000x1_0
        (select (cmpi .slt (srcVec e) (broadcastInDim S1600000 ![] bcast_S_S1600000 (constantI S_ 32 0#32)))
          (addi (srcVec e) (broadcastInDim S1600000 ![] bcast_S_S1600000 (constantI S_ 32 100000#32))) (srcVec e))))

/-- The mean over incoming edges: the edge sum times the reciprocal column, row by row. -/
def mean (e : Edges) (f : Feat) : Feat :=
  mulf (F := Ideal) (φ := .f32) (edgeSum e f) (broadcastInDim S100000x128 ![0, 1] bcast_S100000x1_S100000x128_0_1 (invCol e))

/-- A square weight matrix transposed. -/
def tr (w : Mat) : Mat := transpose S128x128 [1, 0] w transposes_S128x128_S128x128_1_0

/-- The head's weight matrix transposed. -/
def trHead (w : (⟨S64x128, .f32⟩ : BufTy).Contents (Elt Ideal)) : (⟨S128x64, .f32⟩ : BufTy).Contents (Elt Ideal) :=
  transpose S128x64 [1, 0] w transposes_S64x128_S128x64_1_0

/-- A bias vector as a row, read back: entry (0, q) of the row is entry q of the vector. -/
theorem row128 (b : Bias) :
    (fun j : S128.Idx => shapeCast S1x128 b shapeCasts_S128_S1x128 (ix2 (0 : Fin 1) (j 0))) = b :=
  funext fun j => (shapeCast_a_1a_apply b shapeCasts_S128_S1x128 0 (j 0)).trans (congrArg b (eq_ix1 j).symm)

theorem row64 (b : (⟨S64, .f32⟩ : BufTy).Contents (Elt Ideal)) :
    (fun j : S64.Idx => shapeCast S1x64 b shapeCasts_S64_S1x64 (ix2 (0 : Fin 1) (j 0))) = b :=
  funext fun j => (shapeCast_a_1a_apply b shapeCasts_S64_S1x64 0 (j 0)).trans (congrArg b (eq_ix1 j).symm)

/-- The whole program on its ten arguments. -/
def whole (x : Feat) (e : Edges) (w2 : Mat) (b3 : Bias) (w4 w5 : Mat) (b6 : Bias) (w7 : Mat)
    (w8 : (⟨S64x128, .f32⟩ : BufTy).Contents (Elt Ideal)) (b9 : (⟨S64, .f32⟩ : BufTy).Contents (Elt Ideal)) :
    S100000x64.Idx → EReal :=
  head (n := 100000) (d := 64)
    (layer (n := 100000) (d := 128) (mean e (layer (n := 100000) (d := 128) (mean e x) x (tr w2) (tr w4) b3))
      (layer (n := 100000) (d := 128) (mean e x) x (tr w2) (tr w4) b3) (tr w5) (tr w7) b6)
    (trHead w8) b9

variable (m : (ℓ : Loc nD τ sig) → Buf (Elt Ideal) ℓ) (ρ : Dev nD → PrngReg)

/-! ## The contents at the first grid's entry -/

theorem W1_arg0 (c : Dev nD) : W1 m ρ c (Proc.devRef .tc main_arg0) = (m ((c.tc : Thread nD τ).loc main_arg0)) := by
  show StableHlo.after hostOps0 (W0 m ρ c) (Proc.devRef .tc main_arg0) = _
  after_results_simp

theorem W1_src (c : Dev nD) : W1 m ρ c (Proc.devRef .tc main_v1) = srcVec (m ((c.tc : Thread nD τ).loc main_arg1)) := by
  show StableHlo.after hostOps0 (W0 m ρ c) (Proc.devRef .tc main_v1) = _
  after_results_simp
  rfl

theorem W1_dst (c : Dev nD) : W1 m ρ c (Proc.devRef .tc main_v3) = dstVec (m ((c.tc : Thread nD τ).loc main_arg1)) := by
  show StableHlo.after hostOps0 (W0 m ρ c) (Proc.devRef .tc main_v3) = _
  after_results_simp
  rfl

theorem W1_inv (c : Dev nD) : W1 m ρ c (Proc.devRef .tc main_v12) = invCol (m ((c.tc : Thread nD τ).loc main_arg1)) := by
  show StableHlo.after hostOps0 (W0 m ρ c) (Proc.devRef .tc main_v12) = _
  after_results_simp
  rfl

theorem W1_mean (c : Dev nD) : W1 m ρ c (Proc.devRef .tc main_v29) = mean (m ((c.tc : Thread nD τ).loc main_arg1)) (m ((c.tc : Thread nD τ).loc main_arg0)) := by
  show StableHlo.after hostOps0 (W0 m ρ c) (Proc.devRef .tc main_v29) = _
  after_results_simp
  rfl

theorem W1_tr2 (c : Dev nD) : W1 m ρ c (Proc.devRef .tc main_v13) = tr (m ((c.tc : Thread nD τ).loc main_arg2)) := by
  show StableHlo.after hostOps0 (W0 m ρ c) (Proc.devRef .tc main_v13) = _
  after_results_simp
  rfl

theorem W1_tr4 (c : Dev nD) : W1 m ρ c (Proc.devRef .tc main_v14) = tr (m ((c.tc : Thread nD τ).loc main_arg4)) := by
  show StableHlo.after hostOps0 (W0 m ρ c) (Proc.devRef .tc main_v14) = _
  after_results_simp
  rfl

theorem W1_tr5 (c : Dev nD) : W1 m ρ c (Proc.devRef .tc main_v15) = tr (m ((c.tc : Thread nD τ).loc main_arg5)) := by
  show StableHlo.after hostOps0 (W0 m ρ c) (Proc.devRef .tc main_v15) = _
  after_results_simp
  rfl

theorem W1_tr7 (c : Dev nD) : W1 m ρ c (Proc.devRef .tc main_v16) = tr (m ((c.tc : Thread nD τ).loc main_arg7)) := by
  show StableHlo.after hostOps0 (W0 m ρ c) (Proc.devRef .tc main_v16) = _
  after_results_simp
  rfl

theorem W1_tr8 (c : Dev nD) : W1 m ρ c (Proc.devRef .tc main_v17) = trHead (m ((c.tc : Thread nD τ).loc main_arg8)) := by
  show StableHlo.after hostOps0 (W0 m ρ c) (Proc.devRef .tc main_v17) = _
  after_results_simp
  rfl

theorem W1_row3 (c : Dev nD) :
    W1 m ρ c (Proc.devRef .tc main_v30) = shapeCast S1x128 (m ((c.tc : Thread nD τ).loc main_arg3)) shapeCasts_S128_S1x128 := by
  show StableHlo.after hostOps0 (W0 m ρ c) (Proc.devRef .tc main_v30) = _
  after_results_simp
  rfl

theorem W1_arg6 (c : Dev nD) : W1 m ρ c (Proc.devRef .tc main_arg6) = (m ((c.tc : Thread nD τ).loc main_arg6)) := by
  show StableHlo.after hostOps0 (W0 m ρ c) (Proc.devRef .tc main_arg6) = _
  after_results_simp

theorem W1_arg9 (c : Dev nD) : W1 m ρ c (Proc.devRef .tc main_arg9) = (m ((c.tc : Thread nD τ).loc main_arg9)) := by
  show StableHlo.after hostOps0 (W0 m ρ c) (Proc.devRef .tc main_arg9) = _
  after_results_simp

/-! ## The first layer's output, and the contents at the first grid's exit -/

/-- The first layer: the layer function of the mean of the input rows and the input rows. -/
abbrev hidden (c : Dev nD) : S100000x128.Idx → EReal :=
  layer (n := 100000) (d := 128) (mean (m ((c.tc : Thread nD τ).loc main_arg1)) (m ((c.tc : Thread nD τ).loc main_arg0))) (m ((c.tc : Thread nD τ).loc main_arg0)) (tr (m ((c.tc : Thread nD τ).loc main_arg2))) (tr (m ((c.tc : Thread nD τ).loc main_arg4))) (m ((c.tc : Thread nD τ).loc main_arg3))

theorem W2_hidden (c : Dev nD) : W2 m ρ c (Proc.devRef .tc main_v31) = hidden m c := by
  refine ((W2_arr m ρ c 5).trans (Region0.final (V1 m ρ) c)).trans ?_
  show layer (n := 100000) (d := 128) (W1 m ρ c (Proc.devRef .tc main_v29)) (W1 m ρ c (Proc.devRef .tc main_arg0))
      (W1 m ρ c (Proc.devRef .tc main_v13)) (W1 m ρ c (Proc.devRef .tc main_v14))
      (fun j => W1 m ρ c (Proc.devRef .tc main_v30) (ix2 (0 : Fin 1) (j 0))) = _
  rw [W1_mean, W1_arg0, W1_tr2, W1_tr4, W1_row3, row128]

theorem W2_src (c : Dev nD) : W2 m ρ c (Proc.devRef .tc main_v1) = srcVec (m ((c.tc : Thread nD τ).loc main_arg1)) :=
  (W2_of_ne m ρ c main_v1 (by decide)).trans (W1_src m ρ c)
theorem W2_dst (c : Dev nD) : W2 m ρ c (Proc.devRef .tc main_v3) = dstVec (m ((c.tc : Thread nD τ).loc main_arg1)) :=
  (W2_of_ne m ρ c main_v3 (by decide)).trans (W1_dst m ρ c)
theorem W2_inv (c : Dev nD) : W2 m ρ c (Proc.devRef .tc main_v12) = invCol (m ((c.tc : Thread nD τ).loc main_arg1)) :=
  (W2_of_ne m ρ c main_v12 (by decide)).trans (W1_inv m ρ c)
theorem W2_tr5 (c : Dev nD) : W2 m ρ c (Proc.devRef .tc main_v15) = tr (m ((c.tc : Thread nD τ).loc main_arg5)) :=
  (W2_of_ne m ρ c main_v15 (by decide)).trans (W1_tr5 m ρ c)
theorem W2_tr7 (c : Dev nD) : W2 m ρ c (Proc.devRef .tc main_v16) = tr (m ((c.tc : Thread nD τ).loc main_arg7)) :=
  (W2_of_ne m ρ c main_v16 (by decide)).trans (W1_tr7 m ρ c)
theorem W2_tr8 (c : Dev nD) : W2 m ρ c (Proc.devRef .tc main_v17) = trHead (m ((c.tc : Thread nD τ).loc main_arg8)) :=
  (W2_of_ne m ρ c main_v17 (by decide)).trans (W1_tr8 m ρ c)
theorem W2_arg6 (c : Dev nD) : W2 m ρ c (Proc.devRef .tc main_arg6) = (m ((c.tc : Thread nD τ).loc main_arg6)) :=
  (W2_of_ne m ρ c main_arg6 (by decide)).trans (W1_arg6 m ρ c)
theorem W2_arg9 (c : Dev nD) : W2 m ρ c (Proc.devRef .tc main_arg9) = (m ((c.tc : Thread nD τ).loc main_arg9)) :=
  (W2_of_ne m ρ c main_arg9 (by decide)).trans (W1_arg9 m ρ c)

/-! ## The contents at the second grid's entry -/

theorem W3_mean (c : Dev nD) : W3 m ρ c (Proc.devRef .tc main_v43) = mean (m ((c.tc : Thread nD τ).loc main_arg1)) (hidden m c) := by
  show StableHlo.after hostOps1 (W2 m ρ c) (Proc.devRef .tc main_v43) = _
  after_results_simp
  rw [W2_src, W2_dst, W2_inv, W2_hidden]
  rfl

theorem W3_hidden (c : Dev nD) : W3 m ρ c (Proc.devRef .tc main_v31) = hidden m c := by
  show StableHlo.after hostOps1 (W2 m ρ c) (Proc.devRef .tc main_v31) = _
  after_results_simp
  exact W2_hidden m ρ c

theorem W3_tr5 (c : Dev nD) : W3 m ρ c (Proc.devRef .tc main_v15) = tr (m ((c.tc : Thread nD τ).loc main_arg5)) := by
  show StableHlo.after hostOps1 (W2 m ρ c) (Proc.devRef .tc main_v15) = _
  after_results_simp
  exact W2_tr5 m ρ c

theorem W3_tr7 (c : Dev nD) : W3 m ρ c (Proc.devRef .tc main_v16) = tr (m ((c.tc : Thread nD τ).loc main_arg7)) := by
  show StableHlo.after hostOps1 (W2 m ρ c) (Proc.devRef .tc main_v16) = _
  after_results_simp
  exact W2_tr7 m ρ c

theorem W3_tr8 (c : Dev nD) : W3 m ρ c (Proc.devRef .tc main_v17) = trHead (m ((c.tc : Thread nD τ).loc main_arg8)) := by
  show StableHlo.after hostOps1 (W2 m ρ c) (Proc.devRef .tc main_v17) = _
  after_results_simp
  exact W2_tr8 m ρ c

theorem W3_row6 (c : Dev nD) :
    W3 m ρ c (Proc.devRef .tc main_v44) = shapeCast S1x128 (m ((c.tc : Thread nD τ).loc main_arg6)) shapeCasts_S128_S1x128 := by
  show StableHlo.after hostOps1 (W2 m ρ c) (Proc.devRef .tc main_v44) = _
  after_results_simp
  rw [W2_arg6]
  rfl

theorem W3_row9 (c : Dev nD) :
    W3 m ρ c (Proc.devRef .tc main_v45) = shapeCast S1x64 (m ((c.tc : Thread nD τ).loc main_arg9)) shapeCasts_S64_S1x64 := by
  show StableHlo.after hostOps1 (W2 m ρ c) (Proc.devRef .tc main_v45) = _
  after_results_simp
  rw [W2_arg9]
  rfl

/-! ## The result array -/

theorem W4_result (c : Dev nD) :
    W4 m ρ c (Proc.devRef .tc main_v46)
      = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine ((W4_arr m ρ c 7).trans (Region1.final (V3 m ρ) c)).trans ?_
  show head (n := 100000) (d := 64)
      (layer (n := 100000) (d := 128) (W3 m ρ c (Proc.devRef .tc main_v43)) (W3 m ρ c (Proc.devRef .tc main_v31))
        (W3 m ρ c (Proc.devRef .tc main_v15)) (W3 m ρ c (Proc.devRef .tc main_v16))
        (fun j => W3 m ρ c (Proc.devRef .tc main_v44) (ix2 (0 : Fin 1) (j 0))))
      (W3 m ρ c (Proc.devRef .tc main_v17)) (fun j => W3 m ρ c (Proc.devRef .tc main_v45) (ix2 (0 : Fin 1) (j 0))) = _
  rw [W3_mean, W3_hidden, W3_tr5, W3_tr7, W3_tr8, W3_row6, W3_row9, row128, row64]
  rfl

/-- Every weakly fair execution terminates with the result array at that function of the arguments, the
    arguments as launched. -/
theorem run : θ_run defs (onTc (τ := τ) (main (F := Ideal))) ⟨m, fun _ => 0, ρ⟩ (fun r => ∀ c : Dev nD,
      r.2.mem ((c.tc : Thread nD τ).loc main_v46)
        = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (W4_result m ρ c), (h c).2⟩) (Cert.KernelIdeal.Whole.run_named m ρ)

end Cert.KernelIdeal.Stages

end
-- ==== Proof.RefStages.lean ====
/-
  The reference program's result as three stages, each read entry by entry.

  The reference computes, on whole arrays, the mean over incoming edges (an edge sum divided by max(count, 1)),
  then a layer — the activation of (mean · wl + bias) + root · wr — twice, then the head h · wh + bias. Its run
  ends with the result at the composition of those stages; the layer stage is the layer function of the shared
  mathematics (the bias is added before the root term here, which addition allows), the head stage the head function.
-/
import proofs.«167083_j15814069584342_1_alg».proof.Proof.RefRunPatched
import proofs.«167083_j15814069584342_1_alg».proof.Proof.Spec
import proofs.«167083_j15814069584342_1_alg».proof.Proof.LibMatmulAt
import Idealize.ShloMosaic.Lib.Pipeline.Value

set_option maxRecDepth 16384

noncomputable section

open scoped BigOperators

namespace Cert.ReferenceIdeal.Stages

open Cert.ReferenceIdeal Cert.ReferenceIdeal.Gen Cert.Sage
open Idealize.ShloMosaic Idealize.ShloMosaic.TcCoe Idealize.ShloMosaic.ValueIdx Idealize.ShloMosaic.MatmulAt Idealize.SL.Sem

abbrev Edges := (⟨S2x1600000, .i32⟩ : BufTy).Contents (Elt Ideal)
abbrev Feat := (⟨S100000x128, .f32⟩ : BufTy).Contents (Elt Ideal)
abbrev Mat := (⟨S128x128, .f32⟩ : BufTy).Contents (Elt Ideal)
abbrev Bias := (⟨S128, .f32⟩ : BufTy).Contents (Elt Ideal)

/-! ## Where the two host products read their operands -/

theorem dr_l0 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem dr_l1 (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem dr_r0 (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem dr_r1 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

theorem drh_l0 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem drh_l1 (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
theorem drh_r0 (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
theorem drh_r1 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-! ## The stages, as the program spells them -/

/-- Source nodes of the edges, a negative index wrapped by the node count. -/
def srcCol (e : Edges) : (⟨S1600000x1, .i32⟩ : BufTy).Contents (Elt Ideal) :=
  broadcastInDim S1600000x1 ![0] bcast_S1600000_S1600000x1_0
    (select (cmpi .slt (shapeCast S1600000 (extractStridedSlice S1x1600000 ![0, 0] e slices_S2x1600000_S1x1600000_0_0) shapeCasts_S1x1600000_S1600000)
        (broadcastInDim S1600000 ![] bcast_S_S1600000 (constantI S_ 32 0#32)))
      (addi (shapeCast S1600000 (extractStridedSlice S1x1600000 ![0, 0] e slices_S2x1600000_S1x1600000_0_0) shapeCasts_S1x1600000_S1600000)
        (broadcastInDim S1600000 ![] bcast_S_S1600000 (constantI S_ 32 100000#32)))
      (shapeCast S1600000 (extractStridedSlice S1x1600000 ![0, 0] e slices_S2x1600000_S1x1600000_0_0) shapeCasts_S1x1600000_S1600000))

/-- Destination nodes of the edges. -/
def dstCol (e : Edges) : (⟨S1600000x1, .i32⟩ : BufTy).Contents (Elt Ideal) :=
  broadcastInDim S1600000x1 ![0] bcast_S1600000_S1600000x1_0
    (shapeCast S1600000 (extractStridedSlice S1x1600000 ![1, 0] e slices_S2x1600000_S1x1600000_1_0) shapeCasts_S1x1600000_S1600000)

/-- The sum over incoming edges of the source rows of `f`. -/
def edgeSum (e : Edges) (f : Feat) : Feat :=
  Host.scatterAdd scatter_S100000x128_S1600000x1_S1600000x128_1_0_0_1
    (broadcastInDim S100000x128 ![] bcast_S_S100000x128 (constant (F := Ideal) S_ .f32 0x00000000#32)) (dstCol e)
    (Host.gather gather_S100000x128_S1600000x1_S1600000x128_1_0_n_n_0_1_1128 f (srcCol e))

/-- The number of incoming edges of each node. -/
def count (e : Edges) : (⟨S100000, .f32⟩ : BufTy).Contents (Elt Ideal) :=
  Host.scatterAdd scatter_S100000_S1600000x1_S1600000_n_0_0_1
    (broadcastInDim S100000 ![] bcast_S_S100000 (constant (F := Ideal) S_ .f32 0x00000000#32)) (dstCol e)
    (broadcastInDim S1600000 ![] bcast_S_S1600000 (constant (F := Ideal) S_ .f32 0x3F800000#32))

/-- The mean over incoming edges: the edge sum divided by max(count, 1), row by row. -/
def mean (e : Edges) (f : Feat) : Feat :=
  Host.divf (edgeSum e f)
    (broadcastInDim S100000x128 ![0, 1] bcast_S100000x1_S100000x128_0_1
      (broadcastInDim S100000x1 ![0] bcast_S100000_S100000x1_0
        (maximumf (count e) (broadcastInDim S100000 ![] bcast_S_S100000 (constant (F := Ideal) S_ .f32 0x3F800000#32)))))

/-- The activation on a whole array, as the program's outlined function spells it. -/
def actV (v : Feat) : Feat :=
  mulf v (Host.tanh (select
    (cmpf .une (subf v (broadcastInDim S100000x128 ![] bcast_S_S100000x128 (constant (F := Ideal) S_ .f32 0x00000000#32)))
      (subf v (broadcastInDim S100000x128 ![] bcast_S_S100000x128 (constant (F := Ideal) S_ .f32 0x00000000#32))))
    (addf v (broadcastInDim S100000x128 ![] bcast_S_S100000x128 (constant (F := Ideal) S_ .f32 0x00000000#32)))
    (addf (maximumf v (broadcastInDim S100000x128 ![] bcast_S_S100000x128 (constant (F := Ideal) S_ .f32 0x00000000#32)))
      (Host.log1p (Host.exp (Host.negf (Host.absf
        (subf v (broadcastInDim S100000x128 ![] bcast_S_S100000x128 (constant (F := Ideal) S_ .f32 0x00000000#32))))))))))

/-- A layer on whole arrays: (aggregated · wl + bias) + root · wr, activated. -/
def layerV (a r : Feat) (wl wr : Mat) (b : Bias) : Feat :=
  actV (addf (F := Ideal) (addf (F := Ideal) (Host.dotGeneral (F := Ideal) (φ₁ := .f32) (φ₂ := .f32) dot_S100000x128_S128x128_S100000x128_1_0_0_1_n_n none a wl)
      (broadcastInDim S100000x128 ![0, 1] bcast_S1x128_S100000x128_0_1 (broadcastInDim S1x128 ![1] bcast_S128_S1x128_1 b)))
    (Host.dotGeneral (F := Ideal) (φ₁ := .f32) (φ₂ := .f32) dot_S100000x128_S128x128_S100000x128_1_0_0_1_n_n none r wr))

/-- The head on whole arrays. -/
def headV (h : Feat) (wh : (⟨S128x64, .f32⟩ : BufTy).Contents (Elt Ideal)) (bh : (⟨S64, .f32⟩ : BufTy).Contents (Elt Ideal)) :
    (⟨S100000x64, .f32⟩ : BufTy).Contents (Elt Ideal) :=
  addf (F := Ideal) (Host.dotGeneral (F := Ideal) (φ₁ := .f32) (φ₂ := .f32) dot_S100000x128_S128x64_S100000x64_1_0_0_1_n_n none h wh)
    (broadcastInDim S100000x64 ![0, 1] bcast_S1x64_S100000x64_0_1 (broadcastInDim S1x64 ![1] bcast_S64_S1x64_1 bh))

/-- A square weight matrix transposed. -/
def tr (w : Mat) : Mat := transpose S128x128 [1, 0] w transposes_S128x128_S128x128_1_0

/-- The head's weight matrix transposed. -/
def trHead (w : (⟨S64x128, .f32⟩ : BufTy).Contents (Elt Ideal)) : (⟨S128x64, .f32⟩ : BufTy).Contents (Elt Ideal) :=
  transpose S128x64 [1, 0] w transposes_S64x128_S128x64_1_0

/-- The whole program on its ten arguments. -/
def whole (x : Feat) (e : Edges) (w2 : Mat) (b3 : Bias) (w4 w5 : Mat) (b6 : Bias) (w7 : Mat)
    (w8 : (⟨S64x128, .f32⟩ : BufTy).Contents (Elt Ideal)) (b9 : (⟨S64, .f32⟩ : BufTy).Contents (Elt Ideal)) :
    (⟨S100000x64, .f32⟩ : BufTy).Contents (Elt Ideal) :=
  headV (layerV (mean e (layerV (mean e x) x (tr w2) (tr w4) b3)) (layerV (mean e x) x (tr w2) (tr w4) b3) (tr w5) (tr w7) b6)
    (trHead w8) b9

/-! ## The run's result is that composition -/

set_option maxRecDepth 1000000 in
set_option maxHeartbeats 40000000 in
theorem res_eq (m : (ℓ : Loc nD τ sig) → Buf (Elt Ideal) ℓ) (c : Dev nD) :
    Cert.ReferenceIdeal.ValueP.res_main_v68 m c
      = whole (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) :=
  rfl

/-! ## Each stage, entry by entry -/

/-- The activation on a whole array is the activation of each entry. -/
theorem actV_apply (v : Feat) (i : S100000x128.Idx) : actV v i = act (v i) := act_of_neg_form (v i)

/-- A bias vector broadcast to a row and then down the rows, read at (p, q), is the vector at q. -/
theorem bias128_at (b : Bias) (p : Fin 100000) (q : Fin 128) :
    broadcastInDim S100000x128 ![0, 1] bcast_S1x128_S100000x128_0_1 (broadcastInDim S1x128 ![1] bcast_S128_S1x128_1 b) (ix2 p q)
      = b (ix1 q) := by
  rw [broadcastInDim_apply ![0, 1] bcast_S1x128_S100000x128_0_1 _ (ix2 p q) (ix2 (0 : Fin 1) q) (fun a => by
      match a with
      | ⟨0, _⟩ => rfl
      | ⟨1, _⟩ => rfl),
    broadcastInDim_apply ![1] bcast_S128_S1x128_1 b (ix2 (0 : Fin 1) q) (ix1 q) (fun a => by
      match a with
      | ⟨0, _⟩ => rfl)]

theorem bias64_at (b : (⟨S64, .f32⟩ : BufTy).Contents (Elt Ideal)) (p : Fin 100000) (q : Fin 64) :
    broadcastInDim S100000x64 ![0, 1] bcast_S1x64_S100000x64_0_1 (broadcastInDim S1x64 ![1] bcast_S64_S1x64_1 b) (ix2 p q)
      = b (ix1 q) := by
  rw [broadcastInDim_apply ![0, 1] bcast_S1x64_S100000x64_0_1 _ (ix2 p q) (ix2 (0 : Fin 1) q) (fun a => by
      match a with
      | ⟨0, _⟩ => rfl
      | ⟨1, _⟩ => rfl),
    broadcastInDim_apply ![1] bcast_S64_S1x64_1 b (ix2 (0 : Fin 1) q) (ix1 q) (fun a => by
      match a with
      | ⟨0, _⟩ => rfl)]

/-- The layer stage is the layer function. -/
theorem layerV_eq (a r : Feat) (wl wr : Mat) (b : Bias) :
    layerV a r wl wr b = layer (n := 100000) (d := 128) a r wl wr b := by
  funext i
  obtain ⟨p, q, rfl⟩ : ∃ (p : Fin 100000) (q : Fin 128), i = ix2 p q := ⟨i 0, i 1, eq_ix2 i⟩
  unfold layerV
  rw [actV_apply]
  show act _ = act (lin (n := 100000) (d := 128) a r wl wr b p q)
  refine congrArg act ?_
  rw [addf_apply, addf_apply, dotGeneral_ix2 dot_S100000x128_S128x128_S100000x128_1_0_0_1_n_n rfl rfl dr_l0 dr_l1 dr_r0 dr_r1,
    dotGeneral_ix2 dot_S100000x128_S128x128_S100000x128_1_0_0_1_n_n rfl rfl dr_l0 dr_l1 dr_r0 dr_r1, bias128_at]
  exact lin_bias_first a r wl wr b p q

/-- The head stage is the head function. -/
theorem headV_eq (h : Feat) (wh : (⟨S128x64, .f32⟩ : BufTy).Contents (Elt Ideal)) (bh : (⟨S64, .f32⟩ : BufTy).Contents (Elt Ideal)) :
    headV h wh bh = head (n := 100000) (d := 64) h wh bh := by
  funext i
  obtain ⟨p, q, rfl⟩ : ∃ (p : Fin 100000) (q : Fin 64), i = ix2 p q := ⟨i 0, i 1, eq_ix2 i⟩
  unfold headV
  rw [addf_apply, dotGeneral_ix2 dot_S100000x128_S128x64_S100000x64_1_0_0_1_n_n rfl rfl drh_l0 drh_l1 drh_r0 drh_r1, bias64_at]
  rfl

end Cert.ReferenceIdeal.Stages

end
-- ==== Proof.LibHostRead.lean ====
/-
  Two host idioms read at an index, at the ideal instance.

  `splat_at`     a scalar float constant broadcast to any shape (`broadcast_in_dim` with no dimensions), read at
                 an index: the extended real the constant's word denotes, whatever the index;
  `hostDivf_at`  the host's quotient of two arrays, read at an index: the quotient of the two entries.

  Both keep a later unification from having to open a constant's word or a broadcast: after rewriting with
  them a goal mentions the word and the two entries, nothing else.
-/
import Idealize.ShloMosaic.PureOps.Ideal.Laws
import Idealize.ShloMosaic.Lib.ValueIdx
import Idealize.ShloMosaic.Lib.Pipeline.Value

noncomputable section

namespace Idealize.ShloMosaic.HostRead

open Idealize.ShloMosaic Idealize.ShloMosaic.ValueIdx

/-- A constant splat to any shape, read at an index: the constant's word. -/
theorem splat_at {t : Shape} (h : (⟨0, ![]⟩ : Shape).BroadcastsInDim t ![]) (w : BitVec 32) (j : t.Idx) :
    broadcastInDim t ![] h (constant (F := Ideal) ⟨0, ![]⟩ .f32 w) j = Ideal.ofBits .f32 w := by
  rw [broadcastInDim_apply ![] h _ j ix0 (fun a => a.elim0), constant_apply]

/-- The host's quotient of two arrays, read at an index. -/
theorem hostDivf_at {s : Shape} {φ : FTy} (a b : FVec Ideal s φ) (i : s.Idx) :
    Host.divf a b i = Ideal.div (a i) (b i) := rfl

end Idealize.ShloMosaic.HostRead

end
-- ==== Proof.Bridge.lean ====
/-
  The two programs compute one function.

  The idealized kernel's result is head (layer (mean h) h …) with h = layer (mean x) x …, its mean being the edge sum
  times 1 / max(count, 1); the reference's result is the same composition with the mean as the edge sum divided
  by max(count, 1). The divisor is at least one, hence not zero, and for a nonzero divisor c (finite or not) the
  product s · (1 / c) and the quotient s / c are both s · c⁻¹ on the extended reals — no finiteness of the inputs is
  used. The gathers, scatters, transposes and index arithmetic are the same operations of the same arguments in the
  two programs.
-/
import proofs.«167083_j15814069584342_1_alg».proof.Defs
import proofs.«167083_j15814069584342_1_alg».proof.Proof.Gen.Pre_finite_inputs
import proofs.«167083_j15814069584342_1_alg».proof.Proof.KernelStages
import proofs.«167083_j15814069584342_1_alg».proof.Proof.RefStages
import proofs.«167083_j15814069584342_1_alg».proof.Proof.LibHostRead

set_option maxRecDepth 16384

noncomputable section

open scoped BigOperators

namespace Cert.Bridge

open Idealize.ShloMosaic Idealize.ShloMosaic.TcCoe Idealize.ShloMosaic.ValueIdx Idealize.SL.Sem Cert.Sage
open Idealize.ShloMosaic.HostRead

/-- A vector over the nodes, broadcast to a column and then across 128 columns, read at (p, q): the vector at p. -/
theorem col_at {α : Type} (h2 : (⟨2, ![100000, 1]⟩ : Shape).BroadcastsInDim ⟨2, ![100000, 128]⟩ ![0, 1])
    (h1 : (⟨1, ![100000]⟩ : Shape).BroadcastsInDim ⟨2, ![100000, 1]⟩ ![0])
    (x : (⟨1, ![100000]⟩ : Shape).Idx → α) (p : Fin 100000) (q : Fin 128) :
    broadcastInDim ⟨2, ![100000, 128]⟩ ![0, 1] h2 (broadcastInDim ⟨2, ![100000, 1]⟩ ![0] h1 x) (ix2 p q) = x (ix1 p) := by
  rw [broadcastInDim_apply ![0, 1] h2 _ (ix2 p q) (ix2 p (0 : Fin 1)) (fun a => by
      match a with
      | ⟨0, _⟩ => rfl
      | ⟨1, _⟩ => rfl),
    broadcastInDim_apply ![0] h1 x (ix2 p (0 : Fin 1)) (ix1 p) (fun a => by
      match a with
      | ⟨0, _⟩ => rfl)]

/-- The two programs' edge sums are the same operations of the same arguments. -/
theorem edgeSum_eq (e : Cert.KernelIdeal.Stages.Edges) (f : Cert.KernelIdeal.Stages.Feat) :
    Cert.KernelIdeal.Stages.edgeSum e f = Cert.ReferenceIdeal.Stages.edgeSum e f := rfl

/-- So are their counts of incoming edges. -/
theorem count_eq (e : Cert.KernelIdeal.Stages.Edges) :
    Cert.KernelIdeal.Stages.count e = Cert.ReferenceIdeal.Stages.count e := rfl

/-- The mean as a product with the reciprocal column is the mean as a quotient. -/
theorem mean_eq (e : Cert.KernelIdeal.Stages.Edges) (f : Cert.KernelIdeal.Stages.Feat) :
    Cert.KernelIdeal.Stages.mean e f = Cert.ReferenceIdeal.Stages.mean e f := by
  funext i
  obtain ⟨p, q, rfl⟩ : ∃ (p : Fin 100000) (q : Fin 128), i = ix2 p q := ⟨i 0, i 1, eq_ix2 i⟩
  unfold Cert.KernelIdeal.Stages.mean Cert.KernelIdeal.Stages.invCol Cert.ReferenceIdeal.Stages.mean
  rw [mulf_apply, col_at, hostDivf_at, hostDivf_at, col_at, edgeSum_eq, count_eq,
    maximumf_apply, splat_at]
  exact mean_mul_eq_div (Cert.ReferenceIdeal.Stages.edgeSum e f (ix2 p q)) (Cert.ReferenceIdeal.Stages.count e (ix1 p))

/-- The reference's composition of stages is the kernel's function of the same ten arguments. -/
theorem whole_eq (x : Cert.KernelIdeal.Stages.Feat) (e : Cert.KernelIdeal.Stages.Edges)
    (w2 : Cert.KernelIdeal.Stages.Mat) (b3 : Cert.KernelIdeal.Stages.Bias) (w4 w5 : Cert.KernelIdeal.Stages.Mat)
    (b6 : Cert.KernelIdeal.Stages.Bias) (w7 : Cert.KernelIdeal.Stages.Mat)
    (w8 : (⟨Cert.KernelIdeal.S64x128, .f32⟩ : BufTy).Contents (Elt Ideal))
    (b9 : (⟨Cert.KernelIdeal.S64, .f32⟩ : BufTy).Contents (Elt Ideal)) :
    Cert.ReferenceIdeal.Stages.whole x e w2 b3 w4 w5 b6 w7 w8 b9
      = Cert.KernelIdeal.Stages.whole x e w2 b3 w4 w5 b6 w7 w8 b9 := by
  unfold Cert.ReferenceIdeal.Stages.whole Cert.KernelIdeal.Stages.whole
  rw [Cert.ReferenceIdeal.Stages.headV_eq, Cert.ReferenceIdeal.Stages.layerV_eq, Cert.ReferenceIdeal.Stages.layerV_eq]
  rw [← mean_eq, ← mean_eq]
  rfl

/-- From memories agreeing on the arguments both programs run, and end with equal results. -/
theorem algebraic : Cert.algebraic_KernelIdeal_ReferenceIdeal := by
  intro m ρ m' ρ' _ hagree
  refine ⟨_, Cert.KernelIdeal.Stages.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  rw [Cert.ReferenceIdeal.Stages.res_eq, whole_eq, h0, h1, h2, h3, h4, h5, h6, h7, h8, h9]

end Cert.Bridge

end
-- ==== Proof.lean ====
/-
  Two layers of mean-aggregating graph convolution with the x · tanh(softplus x) activation and a linear head,
  as a tiled kernel and as a whole-array reference: the five claims.

  The three frames: the two kernel programs' runs are the generated frame certificates; the reference's run is its
  sequence of host operations read back. The idealized kernel is the kernel's own text read on the extended reals
  (no rewrite was applied). The algebraic claim: both idealized programs end with one function of the arguments
  (Proof/Bridge.lean) — the kernel's mean multiplies an edge sum by 1 / max(count, 1) where the reference divides by
  max(count, 1), equal for every nonzero divisor, and the two add the three terms of each affine map in different
  orders.
-/
import proofs.«167083_j15814069584342_1_alg».proof.Defs
import proofs.«167083_j15814069584342_1_alg».proof.Proof.Gen.Kernel
import proofs.«167083_j15814069584342_1_alg».proof.Proof.Gen.Kernel.Frame
import proofs.«167083_j15814069584342_1_alg».proof.Proof.Gen.KernelIdeal
import proofs.«167083_j15814069584342_1_alg».proof.Proof.Gen.KernelIdeal.Frame
import proofs.«167083_j15814069584342_1_alg».proof.Proof.Gen.ReferenceIdeal
import proofs.«167083_j15814069584342_1_alg».proof.Proof.Gen.Pre_finite_inputs
import proofs.«167083_j15814069584342_1_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.ValueP.run (F := Ideal) m ρ),
    trivial,
    Cert.Bridge.algebraic⟩

end Cert.Proof

end
